-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1x256 .f32) (main_arg5 : FVec F S1 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x512 .f32) (main_arg1 : FVec F S256x512 .f32) (main_arg2 : FVec F S256x512 .f32) (main_arg3 : FVec F S256x512 .f32) (main_arg4 : FVec F S1x256 .f32) (main_arg5 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_v13 main_v16
-- ==== Kernel.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S8192x256 : Shape := ⟨2, ![8192, 256]⟩
abbrev S2x256x256 : Shape := ⟨3, ![2, 256, 256]⟩
abbrev S1024x512 : Shape := ⟨2, ![1024, 512]⟩
abbrev S1024x256 : Shape := ⟨2, ![1024, 256]⟩
abbrev S1x256x256 : Shape := ⟨3, ![1, 256, 256]⟩
abbrev S256x256 : Shape := ⟨2, ![256, 256]⟩
abbrev S512x256 : Shape := ⟨2, ![512, 256]⟩
abbrev S256x1024 : Shape := ⟨2, ![256, 1024]⟩
abbrev S_ : Shape := ⟨0, ![]⟩
abbrev S256x1 : Shape := ⟨2, ![256, 1]⟩
abbrev S8192x1 : Shape := ⟨2, ![8192, 1]⟩
abbrev S1x1 : Shape := ⟨2, ![1, 1]⟩
abbrev S8192 : Shape := ⟨1, ![8192]⟩

abbrev nBuf : Space → Nat
  | .hbm => 18
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S1x256, .f32⟩
  | .hbm, ⟨5, _⟩ => ⟨S1, .f32⟩
  | .hbm, ⟨6, _⟩ => ⟨S8192x256, .bf16⟩
  | .hbm, ⟨7, _⟩ => ⟨S2x256x256, .f32⟩
  | .hbm, ⟨8, _⟩ => ⟨S_, .f32⟩
  | .hbm, ⟨9, _⟩ => ⟨S256x256, .f32⟩
  | .hbm, ⟨10, _⟩ => ⟨S256x1, .f32⟩
  | .hbm, ⟨11, _⟩ => ⟨S256x1, .f32⟩
  | .hbm, ⟨12, _⟩ => ⟨S8192x256, .f32⟩
  | .hbm, ⟨13, _⟩ => ⟨S8192x1, .f32⟩
  | .hbm, ⟨14, _⟩ => ⟨S1x1, .f32⟩
  | .hbm, ⟨15, _⟩ => ⟨S8192x1, .f32⟩
  | .hbm, ⟨16, _⟩ => ⟨S8192x1, .f32⟩
  | .hbm, ⟨17, _⟩ => ⟨S8192, .f32⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S1024x256, .bf16⟩
  | .local _ .vmem, ⟨6, _⟩ => ⟨S1024x256, .bf16⟩
  | .local _ .vmem, ⟨7, _⟩ => ⟨S1x256x256, .f32⟩
  | .local _ .vmem, ⟨8, _⟩ => ⟨S1x256x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  transposes_S1024x256_p1_0_S256x1024 : S1024x256.Transposes [1, 0] S256x1024
  reducesTo_S2x256x256_S256x256_d0 : S2x256x256.ReducesTo [0] S256x256
  h_S_ : 0 < S_.numel
  transposes_S1x256_S256x1_1_0 : S1x256.Transposes [1, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S1024x512_S512x256_S1024x256_1_0_0_1_n_n_wf : DotDims.WF S1024x512 S512x256 S1024x256 [1] [0] [0] [1] [] []
  dot_S256x1024_S1024x256_S256x256_1_0_0_1_n_n_wf : DotDims.WF S256x1024 S1024x256 S256x256 [1] [0] [0] [1] [] []
  dot_S256x256_S256x1_S256x1_1_0_0_1_n_n_wf : DotDims.WF S256x256 S256x1 S256x1 [1] [0] [0] [1] [] []
  dot_S8192x256_S256x1_S8192x1_1_0_0_1_n_n_wf : DotDims.WF S8192x256 S256x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S2x256x256.size a
  hwx0_5 : ∀ i : grid0.Coords, EltTy.bits .f32 = 32 ∨ (Rect.block (s := S2x256x256) S1x256x256.size (cc0_transform_5 i) (hinb0_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x512 : Shape := ⟨2, ![8192, 512]⟩
abbrev S256x512 : Shape := ⟨2, ![256, 512]⟩
abbrev S1x256 : Shape := ⟨2, ![1, 256]⟩
abbrev S1 : Shape := ⟨1, ![1]⟩
abbrev S512x256 : Shape := ⟨2, ![512, 256]⟩
abbrev S8192x256 : Shape := ⟨2, ![8192, 256]⟩
abbrev S256x8192 : Shape := ⟨2, ![256, 8192]⟩
abbrev S8192x8192 : Shape := ⟨2, ![8192, 8192]⟩
abbrev S256x1 : Shape := ⟨2, ![256, 1]⟩
abbrev S8192x1 : Shape := ⟨2, ![8192, 1]⟩
abbrev S1x1 : Shape := ⟨2, ![1, 1]⟩
abbrev S8192 : Shape := ⟨1, ![8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S1x256, .f32⟩
  | .hbm, ⟨5, _⟩ => ⟨S1, .f32⟩
  | .hbm, ⟨6, _⟩ => ⟨S512x256, .f32⟩
  | .hbm, ⟨7, _⟩ => ⟨S8192x256, .f32⟩
  | .hbm, ⟨8, _⟩ => ⟨S512x256, .f32⟩
  | .hbm, ⟨9, _⟩ => ⟨S8192x256, .f32⟩
  | .hbm, ⟨10, _⟩ => ⟨S512x256, .f32⟩
  | .hbm, ⟨11, _⟩ => ⟨S8192x256, .f32⟩
  | .hbm, ⟨12, _⟩ => ⟨S256x8192, .f32⟩
  | .hbm, ⟨13, _⟩ => ⟨S8192x8192, .f32⟩
  | .hbm, ⟨14, _⟩ => ⟨S8192x256, .f32⟩
  | .hbm, ⟨15, _⟩ => ⟨S256x1, .f32⟩
  | .hbm, ⟨16, _⟩ => ⟨S8192x1, .f32⟩
  | .hbm, ⟨17, _⟩ => ⟨S1x1, .f32⟩
  | .hbm, ⟨18, _⟩ => ⟨S8192x1, .f32⟩
  | .hbm, ⟨19, _⟩ => ⟨S8192x1, .f32⟩
  | .hbm, ⟨20, _⟩ => ⟨S8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  transposes_S256x512_S512x256_1_0 : S256x512.Transposes [1, 0] S512x256
  transposes_S8192x256_S256x8192_1_0 : S8192x256.Transposes [1, 0] S256x8192
  transposes_S1x256_S256x1_1_0 : S1x256.Transposes [1, 0] S256x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S8192x512_S512x256_S8192x256_1_0_0_1_n_n_wf : DotDims.WF S8192x512 S512x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x1_S8192x1_1_0_0_1_n_n_wf : DotDims.WF S8192x256 S256x1 S8192x1 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  The two programs as formulas over the extended reals.

  With X the [8192, 512] input and W one of the three [256, 512] weight matrices, a projection is
  `proj X W n e = ∑ d, X[n, d] · W[e, d]`; write Q, K, V for the projections by W_Q, W_K, W_V.
  The reference forms A[n, n'] = ∑ e, Q[n, e] · K[n', e], then Z[n, f] = ∑ n', A[n, n'] · V[n', f], and
  returns ∑ f, Z[n, f] · head_w[0, f] + head_b[0].
  The kernel cuts the 8192 rows into 8 blocks of 1024, lets each of two cores add up K^T V over its own four
  blocks, and the host adds the two partial sums, multiplies K^T V by head_w first and only then by Q:
  ∑ e, Q[n, e] · (∑ f, (∑ n', K[n', e] · V[n', f]) · head_w[0, f]) + head_b[0].
-/
import Idealize.ShloMosaic.PureOps.Ideal
import Idealize.ShloMosaic.Lib.ValueIdx

noncomputable section

open scoped BigOperators

namespace Cert.Spec

open Idealize.ShloMosaic Idealize.ShloMosaic.ValueIdx

/-- The token matrix, a weight matrix, the head's row and the head's bias, as arrays of extended reals. -/
abbrev ArrX : Type := (⟨2, ![8192, 512]⟩ : Shape).Idx → EReal
abbrev ArrW : Type := (⟨2, ![256, 512]⟩ : Shape).Idx → EReal
abbrev ArrH : Type := (⟨2, ![1, 256]⟩ : Shape).Idx → EReal
abbrev ArrB : Type := (⟨1, ![1]⟩ : Shape).Idx → EReal

/-- One entry of a linear projection: row `n` of `X` against row `e` of `W`. -/
def proj (X : ArrX) (W : ArrW) (n : Fin 8192) (e : Fin 256) : EReal :=
  ∑ d : Fin 512, X (ix2 n d) * W (ix2 e d)

/-- Row `p` of the `r`-th block of 1024 consecutive rows (read modulo 8192, so that it is total in `r`). -/
def blockRow (r : ℕ) (p : Fin 1024) : Fin 8192 := ⟨(1024 * r + p.val) % 8192, Nat.mod_lt _ (by norm_num)⟩

/-- The part of K^T V that the rows of block `r` contribute. -/
def kvBlock (X : ArrX) (Wk Wv : ArrW) (r : ℕ) (e f : Fin 256) : EReal :=
  ∑ p : Fin 1024, proj X Wk (blockRow r p) e * proj X Wv (blockRow r p) f

/-- What one core has added up after its first `k` blocks: blocks `4c, …, 4c + k - 1`. -/
def kvPartial (X : ArrX) (Wk Wv : ArrW) (c k : ℕ) (e f : Fin 256) : EReal :=
  ∑ i ∈ Finset.range k, kvBlock X Wk Wv (4 * c + i) e f

/-- The kernel's result at token `n`. -/
def kernelOut (X : ArrX) (Wq Wk Wv : ArrW) (hw : ArrH) (b : ArrB) (n : Fin 8192) : EReal :=
  (∑ e : Fin 256, proj X Wq n e *
      (∑ f : Fin 256, (∑ c : Fin 2, kvPartial X Wk Wv c.val 4 e f) * hw (ix2 0 f))) + b (ix1 0)

/-- The reference's result at token `n`. -/
def refOut (X : ArrX) (Wq Wk Wv : ArrW) (hw : ArrH) (b : ArrB) (n : Fin 8192) : EReal :=
  (∑ f : Fin 256, (∑ n' : Fin 8192, (∑ e : Fin 256, proj X Wq n e * proj X Wk n' e) * proj X Wv n' f) * hw (ix2 0 f))
    + b (ix1 0)

end Cert.Spec

end
-- ==== Proof.Algebra.lean ====
import proofs.«126679_j17051020165649_2_alg».proof.Proof.Spec

/-
  The kernel's formula and the reference's formula agree on finite inputs.

  Both are  ∑ e, ∑ f, ∑ n', Q[n, e] · K[n', e] · V[n', f] · head_w[0, f] + head_b[0].  Two things are used:

  * re-indexing: the rows  1024 · (4 c + i) + p  with  c < 2, i < 4, p < 1024  run through  0, …, 8191  exactly
    once, so the triple sum over (c, i, p) is the sum over all 8192 rows (true in any commutative monoid);
  * finiteness: when every entry is a real number, every sum is the extended-real image of a real sum, and in
    the reals the factors can be moved across the sums and the sums exchanged.
-/

noncomputable section

open scoped BigOperators

namespace Cert.Algebra

open Cert.Spec Idealize.ShloMosaic Idealize.ShloMosaic.ValueIdx

/-! ### Re-indexing -/

/-- A sum over `a` consecutive blocks of length `b` is the sum over the first `b * a` naturals. -/
theorem sum_range_blocks {M : Type*} [AddCommMonoid M] (f : ℕ → M) (b a : ℕ) :
    ∑ i ∈ Finset.range a, ∑ j ∈ Finset.range b, f (b * i + j) = ∑ m ∈ Finset.range (b * a), f m := by
  induction a with
  | zero => simp
  | succ a ih => rw [Finset.sum_range_succ, ih, Nat.mul_succ, Finset.sum_range_add]

/-- The rows of the two cores' four blocks each are all 8192 rows, each once. -/
theorem sum_blockRow {M : Type*} [AddCommMonoid M] (g : Fin 8192 → M) :
    ∑ c : Fin 2, ∑ i ∈ Finset.range 4, ∑ p : Fin 1024, g (blockRow (4 * c.val + i) p)
      = ∑ n' : Fin 8192, g n' := by
  -- read `g` as a function of a natural number, modulo 8192
  set G : ℕ → M := fun m => g ⟨m % 8192, Nat.mod_lt _ (by norm_num)⟩ with hG
  have hrow : ∀ r : ℕ, ∑ p : Fin 1024, g (blockRow r p) = ∑ p ∈ Finset.range 1024, G (1024 * r + p) := by
    intro r
    exact Fin.sum_univ_eq_sum_range (fun p => G (1024 * r + p)) 1024
  have hall : ∑ n' : Fin 8192, g n' = ∑ m ∈ Finset.range 8192, G m := by
    rw [← Fin.sum_univ_eq_sum_range G 8192]
    refine Finset.sum_congr rfl fun n' _ => ?_
    have : n'.val % 8192 = n'.val := Nat.mod_eq_of_lt n'.isLt
    simp only [hG]
    congr 1
    exact Fin.ext this.symm
  have hcore : ∑ c : Fin 2, ∑ i ∈ Finset.range 4, ∑ p ∈ Finset.range 1024, G (1024 * (4 * c.val + i) + p)
      = ∑ c ∈ Finset.range 2, ∑ i ∈ Finset.range 4, ∑ p ∈ Finset.range 1024, G (1024 * (4 * c + i) + p) :=
    Fin.sum_univ_eq_sum_range (fun c => ∑ i ∈ Finset.range 4, ∑ p ∈ Finset.range 1024, G (1024 * (4 * c + i) + p)) 2
  simp only [hrow]
  rw [hcore, hall,
    sum_range_blocks (fun r => ∑ p ∈ Finset.range 1024, G (1024 * r + p)) 4 2,
    sum_range_blocks G 1024 (4 * 2)]

/-! ### Finite sums of reals inside the extended reals -/

/-- The image of a finite real sum is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange of sums in the reals. -/
theorem real_identity {E F N : Type*} [Fintype E] [Fintype F] [Fintype N]
    (q : E → ℝ) (k : N → E → ℝ) (v : N → F → ℝ) (h : F → ℝ) :
    ∑ e, q e * (∑ f, (∑ n', k n' e * v n' f) * h f)
      = ∑ f, (∑ n', (∑ e, q e * k n' e) * v n' f) * h f := by
  simp only [Finset.mul_sum, Finset.sum_mul]
  rw [Finset.sum_comm]
  refine Finset.sum_congr rfl fun f _ => ?_
  rw [Finset.sum_comm]
  refine Finset.sum_congr rfl fun n' _ => ?_
  refine Finset.sum_congr rfl fun e _ => ?_
  ring

/-- The same exchange for extended reals that are images of reals. -/
theorem ereal_identity {E F N : Type*} [Fintype E] [Fintype F] [Fintype N]
    (q : E → ℝ) (k : N → E → ℝ) (v : N → F → ℝ) (h : F → ℝ) :
    ∑ e, (q e : EReal) * (∑ f, (∑ n', (k n' e : EReal) * (v n' f : EReal)) * (h f : EReal))
      = ∑ f, (∑ n', (∑ e, (q e : EReal) * (k n' e : EReal)) * (v n' f : EReal)) * (h f : EReal) := by
  simp only [← EReal.coe_mul, ← coe_sum]
  exact congrArg _ (real_identity q k v h)

/-! ### The two formulas -/

/-- A projection of real data is the image of the real projection. -/
theorem proj_coe (x : (⟨2, ![8192, 512]⟩ : Shape).Idx → ℝ) (w : (⟨2, ![256, 512]⟩ : Shape).Idx → ℝ)
    (n : Fin 8192) (e : Fin 256) :
    proj (fun i => (x i : EReal)) (fun i => (w i : EReal)) n e
      = ((∑ d : Fin 512, x (ix2 n d) * w (ix2 e d) : ℝ) : EReal) := by
  unfold proj
  rw [coe_sum]
  simp only [EReal.coe_mul]

/-- Adding up the two cores' partial sums of K^T V gives the whole of K^T V (no finiteness needed). -/
theorem kv_total (X : ArrX) (Wk Wv : ArrW) (e f : Fin 256) :
    ∑ c : Fin 2, kvPartial X Wk Wv c.val 4 e f = ∑ n' : Fin 8192, proj X Wk n' e * proj X Wv n' f := by
  unfold kvPartial kvBlock
  exact sum_blockRow (fun n' => proj X Wk n' e * proj X Wv n' f)

theorem kernelOut_eq_refOut (X : Cert.Spec.ArrX) (Wq Wk Wv : Cert.Spec.ArrW) (hw : Cert.Spec.ArrH) (b : Cert.Spec.ArrB)
    (hX : ∀ i, ∃ r : ℝ, X i = (r : EReal)) (hq : ∀ i, ∃ r : ℝ, Wq i = (r : EReal))
    (hk : ∀ i, ∃ r : ℝ, Wk i = (r : EReal)) (hv : ∀ i, ∃ r : ℝ, Wv i = (r : EReal))
    (hh : ∀ i, ∃ r : ℝ, hw i = (r : EReal)) (n : Fin 8192) :
    Cert.Spec.kernelOut X Wq Wk Wv hw b n = Cert.Spec.refOut X Wq Wk Wv hw b n := by
  choose x hx using hX
  choose wq hwq using hq
  choose wk hwk using hk
  choose wv hwv using hv
  choose h hh' using hh
  obtain rfl : X = fun i => (x i : EReal) := funext hx
  obtain rfl : Wq = fun i => (wq i : EReal) := funext hwq
  obtain rfl : Wk = fun i => (wk i : EReal) := funext hwk
  obtain rfl : Wv = fun i => (wv i : EReal) := funext hwv
  obtain rfl : hw = fun i => (h i : EReal) := funext hh'
  unfold kernelOut refOut
  refine congrArg (· + b (ix1 0)) ?_
  simp only [kv_total, proj_coe]
  exact ereal_identity
    (fun e => ∑ d : Fin 512, x (ix2 n d) * wq (ix2 e d))
    (fun n' e => ∑ d : Fin 512, x (ix2 n' d) * wk (ix2 e d))
    (fun n' f => ∑ d : Fin 512, x (ix2 n' d) * wv (ix2 f d))
    (fun f => h (ix2 0 f))

end Cert.Algebra

end
-- ==== Proof.Finite.lean ====
/-
  From "every float input is finite" to "every entry is a real number".

  The precondition is the conjunction, over the six float arguments, of "every entry x has |x| < +∞", where
  |x| is max x (-x) in the extended reals and the bound is the pattern 0x7F800000, which denotes +∞.
  The conjunction being true gives each of the six statements, each statement gives the inequality at every
  index, and an extended real x with max x (-x) < +∞ is neither -∞ (whose negation is +∞) nor +∞: it is a
  real number.
-/
import proofs.«126679_j17051020165649_2_alg».proof.Pre_finite_inputs
import Idealize.ShloMosaic.PureOps.Ideal
import Idealize.ShloMosaic.Lib.ValueIdx
import Idealize.ShloMosaic.Lib.ReduceAll

namespace Cert.Finite

open Idealize.ShloMosaic Idealize.ShloMosaic.ValueIdx

/-- The scalar shape has one index. -/
instance : Subsingleton Cert.Pre_finite_inputs.S_.Idx := ⟨fun a b => funext fun d => d.elim0⟩

/-- The pattern 0x7F800000 denotes +∞. -/
theorem inf_pattern : Ideal.ofBits .f32 0x7F800000#32 = (⊤ : EReal) := by simp [Ideal.ofBits, Ideal.ieee]

/-- An extended real whose absolute value max x (-x) lies strictly below +∞ is a real number. -/
theorem real_of_abs_lt_inf (x : EReal)
    (h : Ideal.cmp .olt (max x (-x)) (Ideal.ofBits .f32 0x7F800000#32) = 1#1) : ∃ r : ℝ, x = (r : EReal) := by
  rw [inf_pattern] at h
  induction x using EReal.rec with
  | bot => exact absurd h (by simp [Ideal.cmp])
  | coe r => exact ⟨r, rfl⟩
  | top => exact absurd h (by simp [Ideal.cmp])

/-- One argument's statement: if "all entries have |x| < +∞" came out true, every entry is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = (r : EReal) :=
  real_of_abs_lt_inf (x i) (Host.reduce_andi_all _ _ hr hu ix0 e i)

/-- The precondition, read back: if the conjunction of the six "all entries finite" statements is true, every entry
    of the first five arguments is a real number. The conjunction is nested to the left,
    ((((s₀ ∧ s₁) ∧ s₂) ∧ s₃) ∧ s₄) ∧ s₅, so it is peeled from the right. -/
theorem real_of_fn [Cert.Pre_finite_inputs.Facts]
    (a0 : FVec Ideal Cert.Pre_finite_inputs.S8192x512 .f32) (a1 a2 a3 : FVec Ideal Cert.Pre_finite_inputs.S256x512 .f32)
    (a4 : FVec Ideal Cert.Pre_finite_inputs.S1x256 .f32) (a5 : FVec Ideal Cert.Pre_finite_inputs.S1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1, andi] at h0
  obtain ⟨h0, _⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all a0 _ _ _ e0, real_of_all a1 _ _ _ e1, real_of_all a2 _ _ _ e2, real_of_all a3 _ _ _ e3,
    real_of_all a4 _ _ _ e4⟩

end Cert.Finite
-- ==== Proof.RefSide.lean ====
/-
  The reference program's result, read at one token, is the formula `Cert.Spec.refOut`.

  Each stage of the reference is read at an index built from its coordinates. The three projections
  Q = X W_Q^T, K = X W_K^T, V = X W_V^T at (n, e) are the sums over d of X[n, d] · W[e, d]; the transposed K at (e, n')
  is K at (n', e); the score matrix A = Q K^T at (n, n') is the sum over e of Q[n, e] · K[n', e]; Z = A V at (n, f) is the
  sum over n' of A[n, n'] · V[n', f]; the head column at (f, 0) is head_w[0, f]; Z times the head column at (n, 0) is the sum
  over f of Z[n, f] · head_w[0, f]; the bias broadcast to a column reads head_b[0]; their sum, reshaped to a vector, is read
  at n from row n, column 0. Every sum stays symbolic: only the index functions are compared, coordinate by coordinate.
-/
import proofs.«126679_j17051020165649_2_alg».proof.Defs
import proofs.«126679_j17051020165649_2_alg».proof.Proof.Gen.ReferenceIdeal.Read
import proofs.«126679_j17051020165649_2_alg».proof.Proof.Spec
import Idealize.ShloMosaic.Lib.ValueIdx
import Idealize.ShloMosaic.PureOps.Ideal.Laws

noncomputable section

open scoped BigOperators

namespace Cert.RefSide

open Idealize.ShloMosaic Idealize.ShloMosaic.ValueIdx Cert.ReferenceIdeal Cert.ReferenceIdeal.Read

section Stages

variable (x0 : (⟨Cert.ReferenceIdeal.S8192x512, .f32⟩ : BufTy).Contents (Elt Ideal))
  (x1 x2 x3 : (⟨Cert.ReferenceIdeal.S256x512, .f32⟩ : BufTy).Contents (Elt Ideal))
  (x4 : (⟨Cert.ReferenceIdeal.S1x256, .f32⟩ : BufTy).Contents (Elt Ideal))
  (x5 : (⟨Cert.ReferenceIdeal.S1, .f32⟩ : BufTy).Contents (Elt Ideal))

/-- Q[n, e] = ∑ d, X[n, d] · W_Q[e, d]. -/
theorem q_at (n : Fin 8192) (e : Fin 256) :
    val_main_v1 (F := Ideal) x0 x1 (ix2 n e) = Cert.Spec.proj x0 x1 n e := by
  rw [val_main_v1_apply]
  unfold Cert.Spec.proj
  refine Finset.sum_congr rfl fun d _ => ?_
  rw [val_main_v0_apply]
  exact congrArg₂ (· * ·)
    (congrArg x0 (funext fun a => by match a with | ⟨0, _⟩ => rfl | ⟨1, _⟩ => rfl))
    (congrArg x1 (funext fun a => by match a with | ⟨0, _⟩ => rfl | ⟨1, _⟩ => rfl))

/-- K[n', e] = ∑ d, X[n', d] · W_K[e, d]. -/
theorem k_at (n' : Fin 8192) (e : Fin 256) :
    val_main_v3 (F := Ideal) x0 x2 (ix2 n' e) = Cert.Spec.proj x0 x2 n' e := by
  rw [val_main_v3_apply]
  unfold Cert.Spec.proj
  refine Finset.sum_congr rfl fun d _ => ?_
  rw [val_main_v2_apply]
  exact congrArg₂ (· * ·)
    (congrArg x0 (funext fun a => by match a with | ⟨0, _⟩ => rfl | ⟨1, _⟩ => rfl))
    (congrArg x2 (funext fun a => by match a with | ⟨0, _⟩ => rfl | ⟨1, _⟩ => rfl))

/-- V[n', f] = ∑ d, X[n', d] · W_V[f, d]. -/
theorem v_at (n' : Fin 8192) (f : Fin 256) :
    val_main_v5 (F := Ideal) x0 x3 (ix2 n' f) = Cert.Spec.proj x0 x3 n' f := by
  rw [val_main_v5_apply]
  unfold Cert.Spec.proj
  refine Finset.sum_congr rfl fun d _ => ?_
  rw [val_main_v4_apply]
  exact congrArg₂ (· * ·)
    (congrArg x0 (funext fun a => by match a with | ⟨0, _⟩ => rfl | ⟨1, _⟩ => rfl))
    (congrArg x3 (funext fun a => by match a with | ⟨0, _⟩ => rfl | ⟨1, _⟩ => rfl))

/-- The transposed K at (e, n') is K[n', e]. -/
theorem kt_at (e : Fin 256) (n' : Fin 8192) :
    val_main_v6 (F := Ideal) x0 x2 (ix2 e n') = Cert.Spec.proj x0 x2 n' e := by
  rw [val_main_v6_apply]
  exact (congrArg (val_main_v3 (F := Ideal) x0 x2)
    (funext fun a => by match a with | ⟨0, _⟩ => rfl | ⟨1, _⟩ => rfl)).trans (k_at x0 x2 n' e)

/-- A[n, n'] = ∑ e, Q[n, e] · K[n', e]. -/
theorem a_at (n n' : Fin 8192) :
    val_main_v7 (F := Ideal) x0 x1 x2 (ix2 n n')
      = ∑ e : Fin 256, Cert.Spec.proj x0 x1 n e * Cert.Spec.proj x0 x2 n' e := by
  rw [val_main_v7_apply]
  refine Finset.sum_congr rfl fun e _ => ?_
  have hl : lidx_main_v7 (ix2 n n') e = ix2 n e :=
    funext fun a => by match a with | ⟨0, _⟩ => rfl | ⟨1, _⟩ => rfl
  have hr : ridx_main_v7 (ix2 n n') e = ix2 e n' :=
    funext fun a => by match a with | ⟨0, _⟩ => rfl | ⟨1, _⟩ => rfl
  rw [hl, hr, q_at, kt_at]

/-- Z[n, f] = ∑ n', A[n, n'] · V[n', f]. -/
theorem z_at (n : Fin 8192) (f : Fin 256) :
    val_main_v8 (F := Ideal) x0 x1 x2 x3 (ix2 n f)
      = ∑ n' : Fin 8192, (∑ e : Fin 256, Cert.Spec.proj x0 x1 n e * Cert.Spec.proj x0 x2 n' e) * Cert.Spec.proj x0 x3 n' f := by
  rw [val_main_v8_apply]
  refine Finset.sum_congr rfl fun n' _ => ?_
  have hl : lidx_main_v8 (ix2 n f) n' = ix2 n n' :=
    funext fun a => by match a with | ⟨0, _⟩ => rfl | ⟨1, _⟩ => rfl
  have hr : ridx_main_v8 (ix2 n f) n' = ix2 n' f :=
    funext fun a => by match a with | ⟨0, _⟩ => rfl | ⟨1, _⟩ => rfl
  rw [hl, hr, a_at, v_at]

/-- The head's row as a column: at (f, 0) it is head_w[0, f]. -/
theorem hcol_at (f : Fin 256) :
    val_main_v9 (F := Ideal) x4 (ix2 f (0 : Fin 1)) = x4 (ix2 (0 : Fin 1) f) := by
  rw [val_main_v9_apply]
  exact congrArg x4 (funext fun a => by match a with | ⟨0, _⟩ => rfl | ⟨1, _⟩ => rfl)

/-- (Z · head column)[n, 0] = ∑ f, Z[n, f] · head_w[0, f]. -/
theorem zh_at (n : Fin 8192) :
    val_main_v10 (F := Ideal) x0 x1 x2 x3 x4 (ix2 n (0 : Fin 1))
      = ∑ f : Fin 256, (∑ n' : Fin 8192, (∑ e : Fin 256, Cert.Spec.proj x0 x1 n e * Cert.Spec.proj x0 x2 n' e)
          * Cert.Spec.proj x0 x3 n' f) * x4 (ix2 (0 : Fin 1) f) := by
  rw [val_main_v10_apply]
  refine Finset.sum_congr rfl fun f _ => ?_
  have hl : lidx_main_v10 (ix2 n (0 : Fin 1)) f = ix2 n f :=
    funext fun a => by match a with | ⟨0, _⟩ => rfl | ⟨1, _⟩ => rfl
  have hr : ridx_main_v10 (ix2 n (0 : Fin 1)) f = ix2 f (0 : Fin 1) :=
    funext fun a => by match a with | ⟨0, _⟩ => rfl | ⟨1, _⟩ => rfl
  rw [hl, hr, z_at, hcol_at]

/-- The bias, broadcast to a column, reads head_b[0] in every row. -/
theorem bias_at (n : Fin 8192) :
    val_main_v12 (F := Ideal) x5 (ix2 n (0 : Fin 1)) = x5 (ix1 (0 : Fin 1)) := by
  rw [val_main_v12_apply, val_main_v11_apply]
  exact congrArg x5 (funext fun a => by match a with | ⟨0, _⟩ => rfl)

end Stages

/-- The reference's result at token `n` is `refOut` at `n`. -/
theorem ref_apply (x0 : (⟨Cert.ReferenceIdeal.S8192x512, .f32⟩ : BufTy).Contents (Elt Ideal))
    (x1 x2 x3 : (⟨Cert.ReferenceIdeal.S256x512, .f32⟩ : BufTy).Contents (Elt Ideal))
    (x4 : (⟨Cert.ReferenceIdeal.S1x256, .f32⟩ : BufTy).Contents (Elt Ideal)) (x5 : (⟨Cert.ReferenceIdeal.S1, .f32⟩ : BufTy).Contents (Elt Ideal))
    (n : Fin 8192) :
    Cert.ReferenceIdeal.Read.val_main_v14 (F := Ideal) x0 x1 x2 x3 x4 x5 (ValueIdx.ix1 n) = Cert.Spec.refOut x0 x1 x2 x3 x4 x5 n := by
  have hi : idx_main_v14 (ix1 n) = ix2 n (0 : Fin 1) :=
    funext fun a => Fin.ext (by match a with | ⟨0, _⟩ => exact Nat.div_one _ | ⟨1, _⟩ => rfl)
  rw [val_main_v14_apply, hi, val_main_v13_apply, zh_at, bias_at]
  rfl

end Cert.RefSide

end
-- ==== Proof.Pieces.lean ====
/-
  What the kernel body stores, as values of what it loads.

  The body has two control cases. At the first step of a core it stores the zero block into the accumulator, reads it
  back, and then stores the accumulator's update computed from that read; at every other step the accumulator it reads
  is what the step before left. In both cases the projection block is stored once, whole. Each output's staging buffer
  is covered by whole-block stores, so what it holds afterwards is the last store's value, a function of the loaded
  blocks: the projection payload of the token block and W_Q, and the accumulator payload of the token block, W_K, W_V
  and the accumulator's previous contents (the zero block in the first case).
-/
import proofs.«126679_j17051020165649_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The all-zero offsets of a whole-block access, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First step of a core: the projection output's block is the projection payload. -/
theorem out_A_4 (c : Dev nD) (i : grid0.Coords) (arg2 : Memref sig .tc .vmem S1024x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1024x256 .bf16) (harg6 : arg6.IsWhole) (arg7 : Memref sig .tc .vmem S1x256x256 .f32) (harg7 : arg7.IsWhole) (hc0 : cond0_0 i)
    (x0 : Vec F S1024x512 .f32) (x1 x2 x3 : Vec F S256x512 .f32) :
    out0_A_4 c i arg2 harg2 arg3 harg3 arg4 harg4 arg5 harg5 arg6 harg6 arg7 harg7 hc0 x0 x1 x2 x3 = k0_pay3 x0 x1 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  rw [View.canon_unit_zero hz2]
  simp only [View.readAt_eq_ld, harg2.read_unread, harg3.read_unread, harg4.read_unread, harg5.read_unread, harg7.read_unread, View.ld_unit_zero (S := S1024x512) hz2, View.ld_unit_zero (S := S256x512) hz2, View.ld_unit_zero (S := S1x256x256) hz3]

/-- First step of a core: the accumulator is the update of the zero block it has just stored and read back. -/
theorem out_A_5 (c : Dev nD) (i : grid0.Coords) (arg2 : Memref sig .tc .vmem S1024x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1024x256 .bf16) (harg6 : arg6.IsWhole) (arg7 : Memref sig .tc .vmem S1x256x256 .f32) (harg7 : arg7.IsWhole) (hc0 : cond0_0 i)
    (x0 : Vec F S1024x512 .f32) (x1 x2 x3 : Vec F S256x512 .f32) :
    out0_A_5 c i arg2 harg2 arg3 harg3 arg4 harg4 arg5 harg5 arg6 harg6 arg7 harg7 hc0 x0 x1 x2 x3 = k0_pay4 x0 x2 x3 (k0_pay1 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg7.read_unread, View.ld_unit_zero (S := S1024x512) hz2, View.ld_unit_zero (S := S256x512) hz2, View.ld_unit_zero (S := S1x256x256) hz3]

/-- Later steps: the projection output's block is the projection payload. -/
theorem out_B_4 (c : Dev nD) (i : grid0.Coords) (arg2 : Memref sig .tc .vmem S1024x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1024x256 .bf16) (harg6 : arg6.IsWhole) (arg7 : Memref sig .tc .vmem S1x256x256 .f32) (harg7 : arg7.IsWhole) (hc0 : ¬cond0_0 i)
    (x0 : Vec F S1024x512 .f32) (x1 x2 x3 : Vec F S256x512 .f32) (xo5 : Vec F S1x256x256 .f32) :
    out0_B_4 c i arg2 harg2 arg3 harg3 arg4 harg4 arg5 harg5 arg6 harg6 arg7 harg7 hc0 x0 x1 x2 x3 xo5 = k0_pay3 x0 x1 := by
  unfold out0_B_4
  rw [View.read_writes_eq_canon _ _ _ (cover0_B_4 c i arg2 harg2 arg3 harg3 arg4 harg4 arg5 harg5 arg6 harg6 arg7 harg7 hc0 x0 x1 x2 x3 xo5)]
  unfold kernelRun0_B
  dsimp only
  rw [View.canon_unit_zero hz2]
  simp only [View.readAt_eq_ld, harg2.read_unread, harg3.read_unread, harg4.read_unread, harg5.read_unread, harg7.read_unread, View.ld_unit_zero (S := S1024x512) hz2, View.ld_unit_zero (S := S256x512) hz2, View.ld_unit_zero (S := S1x256x256) hz3]

/-- Later steps: the accumulator is the update of what it held at entry. -/
theorem out_B_5 (c : Dev nD) (i : grid0.Coords) (arg2 : Memref sig .tc .vmem S1024x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1024x256 .bf16) (harg6 : arg6.IsWhole) (arg7 : Memref sig .tc .vmem S1x256x256 .f32) (harg7 : arg7.IsWhole) (hc0 : ¬cond0_0 i)
    (x0 : Vec F S1024x512 .f32) (x1 x2 x3 : Vec F S256x512 .f32) (xo5 : Vec F S1x256x256 .f32) :
    out0_B_5 c i arg2 harg2 arg3 harg3 arg4 harg4 arg5 harg5 arg6 harg6 arg7 harg7 hc0 x0 x1 x2 x3 xo5 = k0_pay4 x0 x2 x3 xo5 := by
  unfold out0_B_5
  rw [View.read_writes_eq_canon _ _ _ (cover0_B_5 c i arg2 harg2 arg3 harg3 arg4 harg4 arg5 harg5 arg6 harg6 arg7 harg7 hc0 x0 x1 x2 x3 xo5)]
  unfold kernelRun0_B
  dsimp only
  rw [View.canon_unit_zero hz3]
  simp only [View.readAt_eq_ld, harg2.read_unread, harg3.read_unread, harg4.read_unread, harg5.read_unread, harg7.read_unread, View.ld_unit_zero (S := S1024x512) hz2, View.ld_unit_zero (S := S256x512) hz2, View.ld_unit_zero (S := S1x256x256) hz3]

end Cert.KernelIdeal.Pieces

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Payload.lean ====
/-
  The kernel body's two stored values, read at one entry, on the extended reals.

  With x the point's [1024, 512] block of tokens: the block written to the projection output holds, at (p, e),
  ∑ d, x[p, d] · W_Q[e, d]; and the [256, 256] accumulator is left at its previous contents plus, at (e, f),
  ∑ p, (∑ d, x[p, d] · W_K[e, d]) · (∑ d, x[p, d] · W_V[f, d]) — the part of K^T V that these 1024 rows contribute.
  A change of float format is the identity on the extended reals, a product into the zero accumulator is the plain sum
  of products, a transposed operand is read at the swapped entry, and a leading axis of extent one is dropped or added
  without moving anything.
-/
import proofs.«126679_j17051020165649_2_alg».proof.Proof.Gen.KernelIdeal.Skeleton
import proofs.«126679_j17051020165649_2_alg».proof.Proof.LibMatmulZero
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

variable [Cert.KernelIdeal.Facts]

/-- The result's row is the left operand's row, for the [1024, 512] × [512, 256] product. -/
theorem projDims_row (i : S1024x256.Idx) (c : dot_S1024x512_S512x256_S1024x256_1_0_0_1_n_n.contr.Idx) :
    (dot_S1024x512_S512x256_S1024x256_1_0_0_1_n_n.lhsIdx i c 0).val = (i 0).val := by
  unfold DotDims.lhsIdx
  rw [dif_neg (show ¬(0 : Fin _) ∈ dot_S1024x512_S512x256_S1024x256_1_0_0_1_n_n.lhsBatch by decide),
    dif_pos (show (0 : Fin _) ∈ dot_S1024x512_S512x256_S1024x256_1_0_0_1_n_n.lhsNonContracting by decide)]
  rfl

/-- The result's column is the right operand's column, for the same product. -/
theorem projDims_col (i : S1024x256.Idx) (c : dot_S1024x512_S512x256_S1024x256_1_0_0_1_n_n.contr.Idx) :
    (dot_S1024x512_S512x256_S1024x256_1_0_0_1_n_n.rhsIdx i c 1).val = (i 1).val := by
  unfold DotDims.rhsIdx
  rw [dif_neg (show ¬(1 : Fin _) ∈ dot_S1024x512_S512x256_S1024x256_1_0_0_1_n_n.rhsBatch by decide),
    dif_pos (show (1 : Fin _) ∈ dot_S1024x512_S512x256_S1024x256_1_0_0_1_n_n.rhsNonContracting by decide)]
  rfl

/-- The same two facts for the [256, 1024] × [1024, 256] product. -/
theorem kvDims_row (i : S256x256.Idx) (c : dot_S256x1024_S1024x256_S256x256_1_0_0_1_n_n.contr.Idx) :
    (dot_S256x1024_S1024x256_S256x256_1_0_0_1_n_n.lhsIdx i c 0).val = (i 0).val := by
  unfold DotDims.lhsIdx
  rw [dif_neg (show ¬(0 : Fin _) ∈ dot_S256x1024_S1024x256_S256x256_1_0_0_1_n_n.lhsBatch by decide),
    dif_pos (show (0 : Fin _) ∈ dot_S256x1024_S1024x256_S256x256_1_0_0_1_n_n.lhsNonContracting by decide)]
  rfl

theorem kvDims_col (i : S256x256.Idx) (c : dot_S256x1024_S1024x256_S256x256_1_0_0_1_n_n.contr.Idx) :
    (dot_S256x1024_S1024x256_S256x256_1_0_0_1_n_n.rhsIdx i c 1).val = (i 1).val := by
  unfold DotDims.rhsIdx
  rw [dif_neg (show ¬(1 : Fin _) ∈ dot_S256x1024_S1024x256_S256x256_1_0_0_1_n_n.rhsBatch by decide),
    dif_pos (show (1 : Fin _) ∈ dot_S256x1024_S1024x256_S256x256_1_0_0_1_n_n.rhsNonContracting by decide)]
  rfl

/-- A block of tokens projected by a weight matrix: entry (p, e) is ∑ d, x[p, d] · w[e, d]. -/
theorem projBlock_apply (x : FVec Ideal S1024x512 .f32) (w : FVec Ideal S256x512 .f32) (p : Fin 1024) (e : Fin 256) :
    matmul dot_S1024x512_S512x256_S1024x256_1_0_0_1_n_n none (k0_pay2 x)
        (transpose S512x256 [1, 0] (truncf .bf16 w Facts₀.bitsLt_bf16_f32) Facts₀.transposes_S256x512_p1_0_S512x256)
        (constant S1024x256 .f32 0x00000000#32) (ix2 p e)
      = ∑ d : Fin 512, x (ix2 p d) * w (ix2 e d) := by
  refine (Cert.LibMatmulZero.matmul_zero_ix2 dot_S1024x512_S512x256_S1024x256_1_0_0_1_n_n rfl rfl rfl rfl
    projDims_row projDims_col none _ _ p e).trans ?_
  refine Finset.sum_congr rfl fun d _ => ?_
  exact congrArg (x (ix2 p d) * ·) (transpose_ix2_apply (truncf .bf16 w Facts₀.bitsLt_bf16_f32) Facts₀.transposes_S256x512_p1_0_S512x256 d e)

/-- The block stored to the projection output. -/
theorem pay3_apply (x : FVec Ideal S1024x512 .f32) (w : FVec Ideal S256x512 .f32) (p : Fin 1024) (e : Fin 256) :
    (k0_pay3 (F := Ideal) x w (ix2 p e) : EReal) = ∑ d : Fin 512, x (ix2 p d) * w (ix2 e d) :=
  projBlock_apply x w p e

/-- The zero block the first point of each core stores. -/
theorem pay1_apply (u : Fin 1) (e f : Fin 256) : k0_pay1 (F := Ideal) (ix3 u e f) = 0 := by
  unfold k0_pay1
  refine (shapeCast_ab_1ab_apply _ _ u e f).trans ?_
  exact Ideal.ofBits_zero_f32

/-- The accumulator after a point: what it held before plus the block's contribution to K^T V. -/
theorem pay4_apply (x : FVec Ideal S1024x512 .f32) (wk wv : FVec Ideal S256x512 .f32) (acc : FVec Ideal S1x256x256 .f32)
    (u : Fin 1) (e f : Fin 256) :
    k0_pay4 x wk wv acc (ix3 u e f)
      = acc (ix3 (0 : Fin 1) e f)
        + ∑ p : Fin 1024, (∑ d : Fin 512, x (ix2 p d) * wk (ix2 e d)) * (∑ d : Fin 512, x (ix2 p d) * wv (ix2 f d)) := by
  unfold k0_pay4
  refine (shapeCast_ab_1ab_apply _ _ u e f).trans ?_
  refine congrArg₂ (· + ·) (shapeCast_1ab_ab_apply acc _ e f) ?_
  refine (Cert.LibMatmulZero.matmul_zero_ix2 dot_S256x1024_S1024x256_S256x256_1_0_0_1_n_n rfl rfl rfl rfl
    kvDims_row kvDims_col none _ _ e f).trans ?_
  refine Finset.sum_congr rfl fun p _ => ?_
  exact congrArg₂ (· * ·) ((transpose_ix2_apply _ _ e p).trans (projBlock_apply x wk p e)) (projBlock_apply x wv p f)

end Cert.KernelIdeal.Payload

end
-- ==== Proof.Accum.lean ====
/-
  What the two outputs' blocks hold after each grid point, on the extended reals.

  Grid point t (of 8, the core being t / 4 and the step within the core t % 4) reads rows 1024·t … 1024·t + 1023 of the
  token matrix and the three whole weight matrices. It leaves, in the projection output's block, the projection of its
  rows by W_Q; and in the core's accumulator the sum, over the core's steps so far, of each step's contribution to
  K^T V: the first step of a core starts from the zero block, every later step adds to what the step before left.
-/
import proofs.«126679_j17051020165649_2_alg».proof.Proof.Gen.KernelIdeal.Frame
import proofs.«126679_j17051020165649_2_alg».proof.Proof.Pieces
import proofs.«126679_j17051020165649_2_alg».proof.Proof.Payload
import proofs.«126679_j17051020165649_2_alg».proof.Proof.Spec

noncomputable section

open scoped BigOperators

namespace Cert.KernelIdeal.Accum

open Cert.KernelIdeal Cert.KernelIdeal.Gen
open Idealize.ShloMosaic Idealize.ShloMosaic.TcCoe Idealize.SL.Sem Idealize.ShloMosaic.ValueIdx
open Cert.Spec (proj blockRow kvBlock kvPartial)

variable (m : (ℓ : Loc nD τ sig) → Buf (Elt Ideal) ℓ)

/-- The four argument arrays the kernel reads, as the region finds them. -/
abbrev X (c : Dev nD) : Cert.Spec.ArrX := V m c main_arg0
abbrev Wq (c : Dev nD) : Cert.Spec.ArrW := V m c main_arg1
abbrev Wk (c : Dev nD) : Cert.Spec.ArrW := V m c main_arg2
abbrev Wv (c : Dev nD) : Cert.Spec.ArrW := V m c main_arg3

/-- The four input blocks of point t, at their literal shapes. -/
abbrev xblk (c : Dev nD) (t : Fin cfg0.N) : FVec Ideal S1024x512 .f32 := iblk m c 0 t
abbrev wqblk (c : Dev nD) (t : Fin cfg0.N) : FVec Ideal S256x512 .f32 := iblk m c 1 t
abbrev wkblk (c : Dev nD) (t : Fin cfg0.N) : FVec Ideal S256x512 .f32 := iblk m c 2 t
abbrev wvblk (c : Dev nD) (t : Fin cfg0.N) : FVec Ideal S256x512 .f32 := iblk m c 3 t

/-- Where each input window's block sits: the token window's block index is the point's number, the weights' is zero. -/
theorem blockIndex : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) :=
  (by decide +kernel : ∀ t : Fin grid0.N, _)

/-- The token block at point t, entry (p, d), is the token matrix at row 1024·t + p. -/
theorem xblk_apply (c : Dev nD) (t : Fin cfg0.N) (p : Fin 1024) (d : Fin 512) :
    xblk m c t (ix2 p d) = X m c (ix2 (blockRow t.val p) d) := by
  have hN : t.val < 8 := lt_of_lt_of_eq t.isLt (show cfg0.N = 8 from N_0)
  unfold xblk iblk
  rw [View.read_apply]
  show V m c main_arg0 _ = V m c main_arg0 _
  congr 1
  funext a
  apply Fin.ext
  match a with
  | ⟨0, _⟩ =>
    show win0_0.index t 0 * 1024 + 1 * p.val = (1024 * t.val + p.val) % 8192
    rw [(blockIndex t).1.1, Nat.mod_eq_of_lt (by have := p.isLt; omega)]; omega
  | ⟨1, _⟩ =>
    show win0_0.index t 1 * 512 + 1 * d.val = d.val
    rw [(blockIndex t).1.2]; omega

/-- A weight window's block is the whole weight matrix. -/
theorem wqblk_apply (c : Dev nD) (t : Fin cfg0.N) (e : Fin 256) (d : Fin 512) :
    wqblk m c t (ix2 e d) = Wq m c (ix2 e d) := by
  unfold wqblk iblk
  rw [View.read_apply]
  show V m c main_arg1 _ = V m c main_arg1 _
  congr 1
  funext a
  apply Fin.ext
  match a with
  | ⟨0, _⟩ => show win0_1.index t 0 * 256 + 1 * e.val = e.val; rw [(blockIndex t).2.1.1]; omega
  | ⟨1, _⟩ => show win0_1.index t 1 * 512 + 1 * d.val = d.val; rw [(blockIndex t).2.1.2]; omega

theorem wkblk_apply (c : Dev nD) (t : Fin cfg0.N) (e : Fin 256) (d : Fin 512) :
    wkblk m c t (ix2 e d) = Wk m c (ix2 e d) := by
  unfold wkblk iblk
  rw [View.read_apply]
  show V m c main_arg2 _ = V m c main_arg2 _
  congr 1
  funext a
  apply Fin.ext
  match a with
  | ⟨0, _⟩ => show win0_2.index t 0 * 256 + 1 * e.val = e.val; rw [(blockIndex t).2.2.1.1]; omega
  | ⟨1, _⟩ => show win0_2.index t 1 * 512 + 1 * d.val = d.val; rw [(blockIndex t).2.2.1.2]; omega

theorem wvblk_apply (c : Dev nD) (t : Fin cfg0.N) (e : Fin 256) (d : Fin 512) :
    wvblk m c t (ix2 e d) = Wv m c (ix2 e d) := by
  unfold wvblk iblk
  rw [View.read_apply]
  show V m c main_arg3 _ = V m c main_arg3 _
  congr 1
  funext a
  apply Fin.ext
  match a with
  | ⟨0, _⟩ => show win0_3.index t 0 * 256 + 1 * e.val = e.val; rw [(blockIndex t).2.2.2.1]; omega
  | ⟨1, _⟩ => show win0_3.index t 1 * 512 + 1 * d.val = d.val; rw [(blockIndex t).2.2.2.2]; omega

/-- A block of rows r of the token matrix, projected: the specification's projection at the block's rows. -/
theorem q_of_blocks (Xa : Cert.Spec.ArrX) (W : Cert.Spec.ArrW) (r : ℕ) (x : FVec Ideal S1024x512 .f32) (w : FVec Ideal S256x512 .f32)
    (hx : ∀ p d, x (ix2 p d) = Xa (ix2 (blockRow r p) d)) (hw : ∀ e d, w (ix2 e d) = W (ix2 e d)) (p : Fin 1024) (e : Fin 256) :
    (k0_pay3 (F := Ideal) x w (ix2 p e) : EReal) = proj Xa W (blockRow r p) e := by
  refine (Cert.KernelIdeal.Payload.pay3_apply x w p e).trans ?_
  unfold proj
  exact Finset.sum_congr rfl fun d _ => congrArg₂ (· * ·) (hx p d) (hw e d)

/-- The accumulator's update over a block of rows r: what it held plus the specification's block term. -/
theorem kv_of_blocks (Xa : Cert.Spec.ArrX) (Wka Wva : Cert.Spec.ArrW) (r : ℕ) (x : FVec Ideal S1024x512 .f32)
    (wk wv : FVec Ideal S256x512 .f32) (hx : ∀ p d, x (ix2 p d) = Xa (ix2 (blockRow r p) d))
    (hk : ∀ e d, wk (ix2 e d) = Wka (ix2 e d)) (hv : ∀ e d, wv (ix2 e d) = Wva (ix2 e d))
    (acc : FVec Ideal S1x256x256 .f32) (u : Fin 1) (e f : Fin 256) :
    k0_pay4 x wk wv acc (ix3 u e f) = acc (ix3 (0 : Fin 1) e f) + kvBlock Xa Wka Wva r e f := by
  refine (Cert.KernelIdeal.Payload.pay4_apply x wk wv acc u e f).trans ?_
  refine congrArg (acc (ix3 (0 : Fin 1) e f) + ·) ?_
  unfold kvBlock proj
  refine Finset.sum_congr rfl fun p _ => ?_
  refine congrArg₂ (· * ·) (Finset.sum_congr rfl fun d _ => ?_) (Finset.sum_congr rfl fun d _ => ?_)
  · exact congrArg₂ (· * ·) (hx p d) (hk e d)
  · exact congrArg₂ (· * ·) (hx p d) (hv f d)

set_option maxHeartbeats 1000000 in
/-- After ANY point the projection output's block holds the projection of the point's rows by W_Q. -/
theorem stepQ (c : Dev nD) (t : Fin cfg0.N) (p : Fin 1024) (e : Fin 256) :
    ((outsAt0 m c t.val t.isLt).1 (ix2 p e) : EReal) = proj (X m c) (Wq m c) (blockRow t.val p) e := by
  by_cases h0 : t.val % 4 = 0
  · rw [outsAt0_A m c t h0]
    dsimp only
    exact (congrFun (Cert.KernelIdeal.Pieces.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
      (xblk m c t) (wqblk m c t) (wkblk m c t) (wvblk m c t)) (ix2 p e)).trans
      (q_of_blocks (X m c) (Wq m c) t.val (xblk m c t) (wqblk m c t) (xblk_apply m c t) (wqblk_apply m c t) p e)
  · rw [outsAt0_B m c t h0]
    dsimp only
    exact (congrFun (Cert.KernelIdeal.Pieces.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
      (xblk m c t) (wqblk m c t) (wkblk m c t) (wvblk m c t)
      (outsAt0 m c (t.val - 1) (Nat.lt_of_le_of_lt (Nat.sub_le _ _) t.isLt)).2) (ix2 p e)).trans
      (q_of_blocks (X m c) (Wq m c) t.val (xblk m c t) (wqblk m c t) (xblk_apply m c t) (wqblk_apply m c t) p e)

set_option maxHeartbeats 1000000 in
/-- A core's first point leaves the point's own contribution (added to the zero block). -/
theorem stepA (c : Dev nD) (t : Fin cfg0.N) (h0 : t.val % 4 = 0) (u : Fin 1) (e f : Fin 256) :
    (outsAt0 m c t.val t.isLt).2 (ix3 u e f) = 0 + kvBlock (X m c) (Wk m c) (Wv m c) t.val e f := by
  rw [outsAt0_A m c t h0]
  dsimp only
  refine (congrFun (Cert.KernelIdeal.Pieces.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
    (xblk m c t) (wqblk m c t) (wkblk m c t) (wvblk m c t)) (ix3 u e f)).trans ?_
  refine (kv_of_blocks (X m c) (Wk m c) (Wv m c) t.val (xblk m c t) (wkblk m c t) (wvblk m c t)
    (xblk_apply m c t) (wkblk_apply m c t) (wvblk_apply m c t) (k0_pay1 (F := Ideal)) u e f).trans ?_
  exact congrArg (· + kvBlock (X m c) (Wk m c) (Wv m c) t.val e f) (Cert.KernelIdeal.Payload.pay1_apply 0 e f)

set_option maxHeartbeats 1000000 in
/-- Every later point adds its contribution to what the point before left. -/
theorem stepB (c : Dev nD) (t : Fin cfg0.N) (h0 : ¬t.val % 4 = 0) (u : Fin 1) (e f : Fin 256) :
    (outsAt0 m c t.val t.isLt).2 (ix3 u e f)
      = (outsAt0 m c (t.val - 1) (Nat.lt_of_le_of_lt (Nat.sub_le _ _) t.isLt)).2 (ix3 (0 : Fin 1) e f)
        + kvBlock (X m c) (Wk m c) (Wv m c) t.val e f := by
  rw [outsAt0_B m c t h0]
  dsimp only
  refine (congrFun (Cert.KernelIdeal.Pieces.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h))
    (xblk m c t) (wqblk m c t) (wkblk m c t) (wvblk m c t)
    (outsAt0 m c (t.val - 1) (Nat.lt_of_le_of_lt (Nat.sub_le _ _) t.isLt)).2) (ix3 u e f)).trans ?_
  exact kv_of_blocks (X m c) (Wk m c) (Wv m c) t.val (xblk m c t) (wkblk m c t) (wvblk m c t)
    (xblk_apply m c t) (wkblk_apply m c t) (wvblk_apply m c t)
    (outsAt0 m c (t.val - 1) (Nat.lt_of_le_of_lt (Nat.sub_le _ _) t.isLt)).2 u e f

/-- So after point n the accumulator of core n / 4 holds the sum of the contributions of that core's blocks
    4·(n / 4), …, n: by induction on the point. -/
theorem outsAt_kv (c : Dev nD) : ∀ (n : ℕ) (h : n < cfg0.N) (u : Fin 1) (e f : Fin 256),
    (outsAt0 m c n h).2 (ix3 u e f) = kvPartial (X m c) (Wk m c) (Wv m c) (n / 4) (n % 4 + 1) e f := by
  intro n
  induction n with
  | zero =>
    intro h u e f
    refine (stepA m c ⟨0, h⟩ rfl u e f).trans ?_
    show 0 + kvBlock (X m c) (Wk m c) (Wv m c) 0 e f = _
    unfold kvPartial
    simp
  | succ n ih =>
    intro h u e f
    by_cases h0 : (n + 1) % 4 = 0
    · refine (stepA m c ⟨n + 1, h⟩ h0 u e f).trans ?_
      show 0 + kvBlock (X m c) (Wk m c) (Wv m c) (n + 1) e f = _
      unfold kvPartial
      have e1 : 4 * ((n + 1) / 4) = n + 1 := by omega
      rw [h0, e1]
      simp
    · refine (stepB m c ⟨n + 1, h⟩ h0 u e f).trans ?_
      have hprev := ih (Nat.lt_of_succ_lt h) 0 e f
      show (outsAt0 m c n _).2 (ix3 (0 : Fin 1) e f) + kvBlock (X m c) (Wk m c) (Wv m c) (n + 1) e f = _
      rw [hprev]
      unfold kvPartial
      have e1 : n / 4 = (n + 1) / 4 := by omega
      have e2 : n % 4 + 1 = (n + 1) % 4 := by omega
      have e3 : 4 * ((n + 1) / 4) + (n + 1) % 4 = n + 1 := by omega
      rw [e1, e2, Finset.sum_range_succ, e3]

end Cert.KernelIdeal.Accum

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.Tail.lean ====
/-
  The host lines after the kernel, as one function of the two arrays the kernel wrote, the head's row and the bias.

  They add the two per-core partial sums of K^T V (a sum over the leading axis, from the zero word), multiply the
  [256, 256] result by the head's row laid as a column, multiply the [8192, 256] projection by that column, add the
  bias to every row and drop the unit axis. Read at token n on the extended reals:
  ∑ e, Q[n, e] · (∑ f, (∑ k, parts[k, e, f]) · head_w[0, f]) + head_b[0].
-/
import proofs.«126679_j17051020165649_2_alg».proof.KernelIdeal
import proofs.«126679_j17051020165649_2_alg».proof.Proof.LibRowOps
import Idealize.ShloMosaic.PureOps.Ideal.Laws
import Idealize.ShloMosaic.Lib.ValueLayout
import Idealize.ShloMosaic.Lib.ValueIdx
import Idealize.ShloMosaic.Lib.Pipeline.Value

/-
  The host lines that follow the kernel, as one function, read at one entry on the extended reals.

  From the kernel's two outputs — Q as a [8192, 256] array and the two per-core partial sums of K^T V as a
  [2, 256, 256] array — the host program
    * adds the two partial sums (a reduction over axis 0 from the zero word):  KV[e, f] = 0 + Σ_c parts[c, e, f];
    * turns the head's row [1, 256] into a column [256, 1] and multiplies:     u[e]     = Σ_f KV[e, f] · head_w[0, f];
    * multiplies Q by that column:                                            y[n]     = Σ_e Q[n, e] · u[e];
    * adds the bias, broadcast from [1] over [1, 1] to [8192, 1], and drops the unit axis.
  Each step is read at an index by one small lemma; `tail_apply` chains them.
-/

noncomputable section

open scoped BigOperators

namespace Cert.KernelIdeal.Tail

open Cert.KernelIdeal Cert.KernelIdeal.Facts₀ Idealize.ShloMosaic Idealize.ShloMosaic.ValueIdx

variable [Cert.KernelIdeal.Facts]

/-- The host lines after the kernel: add the two per-core partial sums, multiply by the head's row, then by the projection, add the bias. -/
def tail (q : FVec Ideal S8192x256 .bf16) (parts : FVec Ideal S2x256x256 .f32) (hw : FVec Ideal S1x256 .f32) (b : FVec Ideal S1 .f32) : FVec Ideal S8192 .f32 :=
  shapeCast S8192
    (addf
      (Host.dotGeneral (F := Ideal) dot_S8192x256_S256x1_S8192x1_1_0_0_1_n_n none (extf .f32 q bitsLt_bf16_f32)
        (Host.dotGeneral (F := Ideal) dot_S256x256_S256x1_S256x1_1_0_0_1_n_n none
          (Host.reduceAdd (F := Ideal) parts (constant (F := Ideal) S_ .f32 0x00000000#32) reducesTo_S2x256x256_S256x256_d0 h_S_)
          (transpose S256x1 [1, 0] hw transposes_S1x256_S256x1_1_0)))
      (broadcastInDim S8192x1 ![0, 1] bcast_S1x1_S8192x1_0_1 (broadcastInDim S1x1 ![1] bcast_S1_S1x1_1 b)))
    shapeCasts_S8192x1_S8192

/-! ### One operation at a time -/

/-- The host's sum over the leading axis of an [A, B, C] array, at (e, f): the initial value plus Σ_c x[c, e, f]. -/
theorem hostAdd0_apply {A B C : Nat} (x : FVec Ideal ⟨3, ![A, B, C]⟩ .f32) (init : FVec Ideal ⟨0, ![]⟩ .f32)
    (h' : Shape.ReducesTo (⟨3, ![A, B, C]⟩ : Shape) [0] ⟨2, ![B, C]⟩) (h : Shape.Reduces (⟨3, ![A, B, C]⟩ : Shape) [0] ⟨2, ![B, C]⟩)
    (hu : 0 < (⟨0, ![]⟩ : Shape).numel) (e : Fin B) (f : Fin C) :
    Host.reduceAdd (F := Ideal) x init h' hu (ix2 e f) = init (Shape.Idx.first hu) + ∑ c : Fin A, x (ix3 c e f) :=
  (Ideal.hostReduceAdd_single h' h x (init (Shape.Idx.first hu)) (ix2 e f)).trans
    (congrArg (init (Shape.Idx.first hu) + ·) (Finset.sum_congr rfl fun k _ => congrArg x (funext fun d => Fin.ext (by
      match d with
      | ⟨0, _⟩ => rfl
      | ⟨1, _⟩ => rfl
      | ⟨2, _⟩ => rfl))))

/-- The sum of the two partial sums from the zero word, at (e, f), is Σ_c parts[c, e, f]. -/
theorem kv_apply (parts : FVec Ideal S2x256x256 .f32) (e f : Fin 256) :
    Host.reduceAdd (F := Ideal) parts (constant (F := Ideal) S_ .f32 0x00000000#32) reducesTo_S2x256x256_S256x256_d0 h_S_ (ix2 e f)
      = ∑ c : Fin 2, parts (ix3 c e f) := by
  refine (hostAdd0_apply parts _ reducesTo_S2x256x256_S256x256_d0 (by decide) h_S_ e f).trans ?_
  rw [constant_apply, Ideal.ofBits_zero_f32, zero_add]

/-- The head's row as a column, at (f, 0), is the row at (0, f). -/
theorem headCol_apply (hw : FVec Ideal S1x256 .f32) (f : Fin 256) (u : Fin 1) :
    transpose S256x1 [1, 0] hw transposes_S1x256_S256x1_1_0 (ix2 f u) = hw (ix2 u f) :=
  transpose_ix2_apply hw transposes_S1x256_S256x1_1_0 f u

/-- The product of a [256, 256] matrix with a [256, 1] column, at (e, u). -/
theorem dotCol_apply (l : FVec Ideal S256x256 .f32) (r : FVec Ideal S256x1 .f32) (e : Fin 256) (u : Fin 1) :
    Host.dotGeneral (F := Ideal) dot_S256x256_S256x1_S256x1_1_0_0_1_n_n none l r (ix2 e u)
      = ∑ f : Fin 256, l (ix2 e f) * r (ix2 f u) :=
  Cert.LibRowOps.dotGeneral_ix2 dot_S256x256_S256x1_S256x1_1_0_0_1_n_n rfl rfl rfl rfl
    (fun i c => by
      unfold DotDims.lhsIdx
      rw [dif_neg (show ¬(0 : Fin _) ∈ dot_S256x256_S256x1_S256x1_1_0_0_1_n_n.lhsBatch from List.not_mem_nil),
        dif_pos (show (0 : Fin _) ∈ dot_S256x256_S256x1_S256x1_1_0_0_1_n_n.lhsNonContracting from List.mem_singleton.2 rfl)]
      rfl)
    (fun i c => by
      unfold DotDims.rhsIdx
      rw [dif_neg (show ¬(1 : Fin _) ∈ dot_S256x256_S256x1_S256x1_1_0_0_1_n_n.rhsBatch from List.not_mem_nil),
        dif_pos (show (1 : Fin _) ∈ dot_S256x256_S256x1_S256x1_1_0_0_1_n_n.rhsNonContracting from List.mem_singleton.2 rfl)]
      rfl)
    none l r e u

/-- The product of the [8192, 256] projection with a [256, 1] column, at (n, u). -/
theorem dotRow_apply (l : FVec Ideal S8192x256 .f32) (r : FVec Ideal S256x1 .f32) (n : Fin 8192) (u : Fin 1) :
    Host.dotGeneral (F := Ideal) dot_S8192x256_S256x1_S8192x1_1_0_0_1_n_n none l r (ix2 n u)
      = ∑ e : Fin 256, l (ix2 n e) * r (ix2 e u) :=
  Cert.LibRowOps.dotGeneral_ix2 dot_S8192x256_S256x1_S8192x1_1_0_0_1_n_n rfl rfl rfl rfl
    (fun i c => by
      unfold DotDims.lhsIdx
      rw [dif_neg (show ¬(0 : Fin _) ∈ dot_S8192x256_S256x1_S8192x1_1_0_0_1_n_n.lhsBatch from List.not_mem_nil),
        dif_pos (show (0 : Fin _) ∈ dot_S8192x256_S256x1_S8192x1_1_0_0_1_n_n.lhsNonContracting from List.mem_singleton.2 rfl)]
      rfl)
    (fun i c => by
      unfold DotDims.rhsIdx
      rw [dif_neg (show ¬(1 : Fin _) ∈ dot_S8192x256_S256x1_S8192x1_1_0_0_1_n_n.rhsBatch from List.not_mem_nil),
        dif_pos (show (1 : Fin _) ∈ dot_S8192x256_S256x1_S8192x1_1_0_0_1_n_n.rhsNonContracting from List.mem_singleton.2 rfl)]
      rfl)
    none l r n u

/-- The bias broadcast from [1] over [1, 1] to [8192, 1], at (n, u), is the bias. -/
theorem bias_apply (b : FVec Ideal S1 .f32) (n : Fin 8192) (u : Fin 1) :
    broadcastInDim S8192x1 ![0, 1] bcast_S1x1_S8192x1_0_1 (broadcastInDim S1x1 ![1] bcast_S1_S1x1_1 b) (ix2 n u)
      = b (ix1 (0 : Fin 1)) := by
  refine (broadcastInDim_apply _ bcast_S1x1_S8192x1_0_1 _ (ix2 n u) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else u.val; rw [if_pos rfl])).trans ?_
  exact broadcastInDim_apply _ bcast_S1_S1x1_1 b (ix2 (0 : Fin 1) (0 : Fin 1)) (ix1 (0 : Fin 1)) (fun a => match a with
    | ⟨0, _⟩ => by show 0 = if (1 : Nat) = 1 then 0 else (0 : Fin 1).val; rw [if_pos rfl])

/-- A column [8192, 1] with its unit axis dropped, at n, is the column at (n, 0). -/
theorem dropUnit_apply {α : Type} (y : S8192x1.Idx → α) (n : Fin 8192) :
    shapeCast S8192 y shapeCasts_S8192x1_S8192 (ix1 n) = y (ix2 n (0 : Fin 1)) :=
  shapeCast_apply y shapeCasts_S8192x1_S8192 (ix1 n) (ix2 n (0 : Fin 1)) (by
    rw [Shape.rowMajor_val_two, Shape.rowMajor_val_one]
    show n.val * 1 + 0 = n.val
    rw [Nat.mul_one, Nat.add_zero])

/-! ### The chain -/

theorem tail_apply (q : FVec Ideal S8192x256 .bf16) (parts : FVec Ideal S2x256x256 .f32) (hw : FVec Ideal S1x256 .f32) (b : FVec Ideal S1 .f32) (n : Fin 8192) :
    tail q parts hw b (ix1 n)
      = (∑ e : Fin 256, q (ix2 n e) * (∑ f : Fin 256, (∑ c : Fin 2, parts (ix3 c e f)) * hw (ix2 (0 : Fin 1) f))) + b (ix1 (0 : Fin 1)) := by
  unfold tail
  refine (dropUnit_apply _ n).trans ?_
  rw [addf_apply, bias_apply]
  refine congrArg (· + b (ix1 (0 : Fin 1))) ?_
  refine (dotRow_apply _ _ n 0).trans ?_
  refine Finset.sum_congr rfl fun e _ => ?_
  rw [extf_apply]
  refine congrArg (q (ix2 n e) * ·) ?_
  refine (dotCol_apply _ _ e 0).trans ?_
  refine Finset.sum_congr rfl fun f _ => ?_
  rw [kv_apply, headCol_apply]

end Cert.KernelIdeal.Tail

end
-- ==== Proof.QArray.lean ====
/-
  From the blocks to the whole projection output.

  The projection output is an [8192, 256] array cut into 8 blocks of 1024 rows (all 256 columns); grid point t
  writes block t back, at every point. After point t the block holds, at (p, e), the projection of token
  1024·t + p by row e of W_Q. Row n of the array lies in block n / 1024 at row n % 1024, so the blocks are
  the restrictions of ONE function of the array's index, (n, e) ↦ ∑ d, X[n, d] · W_Q[e, d], and together
  they cover the array: after the run the array is that function.
-/
import proofs.«126679_j17051020165649_2_alg».proof.Proof.Accum
import Idealize.ShloMosaic.Lib.Pipeline.Value

noncomputable section

open scoped BigOperators

namespace Cert.KernelIdeal.QArray

open Cert.KernelIdeal Cert.KernelIdeal.Gen Cert.KernelIdeal.Accum
open Idealize.ShloMosaic Idealize.ShloMosaic.TcCoe Idealize.SL.Sem Idealize.ShloMosaic.ValueIdx
open Idealize.ShloMosaic.Pipeline (Dat)
open Cert.Spec (proj blockRow kvPartial)

variable (m : (ℓ : Loc nD τ sig) → Buf (Elt Ideal) ℓ)

/-- The projection output after the run: entry (n, e) is the projection of token n by row e of W_Q. -/
def qArr (c : Dev nD) : FVec Ideal S8192x256 .bf16 :=
  fun i => proj (X m c) (Wq m c) ⟨(i 0).val, (i 0).isLt⟩ ⟨(i 1).val, (i 1).isLt⟩

theorem qArr_apply (c : Dev nD) (n : Fin 8192) (e : Fin 256) : (qArr m c (ix2 n e) : EReal) = proj (X m c) (Wq m c) n e := rfl

/-- Where the output's block sits: at point t its block index is (t, 0). -/
theorem blockIndex4 : ∀ t : Fin cfg0.N, win0_4.index t 0 = t.val ∧ win0_4.index t 1 = 0 :=
  (by decide +kernel : ∀ t : Fin grid0.N, _)

/-- What point t writes back is block t of the one array function: the block's entry (p, e) is the array's
    entry (1024·t + p, e). -/
theorem flushed4_eq (c : Dev nD) (t : Fin cfg0.N) (hf : (cfg0.win 4).flush t = true) :
    (dats m 0 c).flushed 4 t = ((cfg0.win 4).blk t).view.read (Elt Ideal) (qArr m c) := by
  have hN : t.val < 8 := lt_of_lt_of_eq t.isLt (show cfg0.N = 8 from N_0)
  show (cfg0.win 4).cut (grid0.coords t) ((dats m 0 c).after 4 t) = _
  rw [after0_4]
  refine funext fun (j : S1024x256.Idx) => ?_
  show (outsAt0 m c t.val t.isLt).1 j = ((cfg0.win 4).blk t).view.read (Elt Ideal) (qArr m c) j
  obtain ⟨p, e, rfl⟩ : ∃ (p : Fin 1024) (e : Fin 256), j = ix2 p e := ⟨j 0, j 1, eq_ix2 j⟩
  rw [View.read_apply]
  refine (stepQ m c t p e).trans ?_
  show proj (X m c) (Wq m c) (blockRow t.val p) e = qArr m c (((cfg0.win 4).blk t).view.emb (ix2 p e))
  unfold qArr
  refine congrArg₂ (proj (X m c) (Wq m c)) (Fin.ext ?_) (Fin.ext ?_)
  · show (1024 * t.val + p.val) % 8192 = win0_4.index t 0 * 1024 + 1 * p.val
    rw [(blockIndex4 t).1, Nat.mod_eq_of_lt (by have := p.isLt; omega)]; omega
  · show e.val = win0_4.index t 1 * 256 + 1 * e.val
    rw [(blockIndex4 t).2]; omega

/-- Every index of the array lies in the block of some point: row n in the block of point n / 1024. -/
theorem cover4 (i : S8192x256.Idx) :
    ∃ t : Fin cfg0.N, (cfg0.win 4).flush t = true ∧ i ∈ ((cfg0.win 4).blk t).view.set := by
  have hN : cfg0.N = 8 := N_0
  have h0 : (i 0).val < 8192 := (i 0).isLt
  have h1 : (i 1).val < 256 := (i 1).isLt
  obtain ⟨t, ht⟩ : ∃ t : Fin cfg0.N, t.val = (i 0).val / 1024 := ⟨⟨(i 0).val / 1024, by rw [hN]; omega⟩, rfl⟩
  refine ⟨t, flush0_4 t, ?_⟩
  show i ∈ ((View.whole main_v0_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(blockIndex4 t).1, ht]; omega
  | ⟨1, _⟩ =>
    show win0_4.index t 1 * 256 ≤ (i 1).val ∧ (i 1).val < win0_4.index t 1 * 256 + 256
    rw [(blockIndex4 t).2]; omega

/-- So after the run the projection output is the one array function. -/
theorem final4 (c : Dev nD) : (dats m 0 c).arrAt 4 cfg0.N = qArr m c :=
  (dats m 0 c).arrAt_eq_of_cover 4 (qArr m c) (fun t hf => flushed4_eq m c t hf) (cover4)

end Cert.KernelIdeal.QArray

end
-- ==== Proof.KvArray.lean ====
/-
  From the blocks to the whole array of per-core partial sums.

  The second output is a [2, 256, 256] array, one [256, 256] slab per core. A core's accumulator block is slab t / 4 at
  every point t of that core and is written back only after the core's last step (t % 4 = 3), when it holds the sum of
  the contributions of the core's four blocks of rows to K^T V. The two writing-back points, 3 and 7, cover the two
  slabs, so after the run slab k is core k's sum over its four blocks.
-/
import proofs.«126679_j17051020165649_2_alg».proof.Proof.Accum
import Idealize.ShloMosaic.Lib.Pipeline.Value

/-
  From blocks to the whole array, for the per-core partial sums of K^T V.

  The [2, 256, 256] array of partial sums is written back one slab [1, 256, 256] at a time, and only at the last step
  of each core: at grid point t with t % 4 = 3 the slab t / 4 receives what the core's accumulator holds after its
  four steps, the sum of its four blocks' contributions. The two slabs (points 3 and 7) fill the array, so after the
  run the array is one function of the inputs: slab k holds core k's sum over its four blocks.
-/

noncomputable section

namespace Cert.KernelIdeal.KvArray

open Cert.KernelIdeal Cert.KernelIdeal.Gen Cert.KernelIdeal.Accum
open Idealize.ShloMosaic Idealize.ShloMosaic.TcCoe Idealize.SL.Sem Idealize.ShloMosaic.ValueIdx
open Idealize.ShloMosaic.Pipeline (Dat)
open Cert.Spec (proj blockRow kvPartial)

variable (m : (ℓ : Loc nD τ sig) → Buf (Elt Ideal) ℓ)

/-- The per-core partial sums after the run: slab k holds core k's sum of its four blocks' contributions to K^T V. -/
def kvArr (c : Dev nD) : FVec Ideal S2x256x256 .f32 :=
  fun i => kvPartial (X m c) (Wk m c) (Wv m c) (i 0).val 4 ⟨(i 1).val, (i 1).isLt⟩ ⟨(i 2).val, (i 2).isLt⟩

theorem kvArr_apply (c : Dev nD) (k : Fin 2) (e f : Fin 256) :
    kvArr m c (ix3 k e f) = kvPartial (X m c) (Wk m c) (Wv m c) k.val 4 e f := rfl

/-- Where the accumulator's block sits: its slab index is the core, t / 4, and its two other block indices are zero. -/
theorem slabIndex : ∀ t : Fin cfg0.N, win0_5.index t 0 = t.val / 4 ∧ win0_5.index t 1 = 0 ∧ win0_5.index t 2 = 0 :=
  (by decide +kernel : ∀ t : Fin grid0.N, _)

/-- Entry (u, e, f) of point t's block is entry (t / 4, e, f) of the array. -/
theorem slab_emb (t : Fin cfg0.N) (k : Fin 2) (hk : k.val = t.val / 4) (u : Fin 1) (e f : Fin 256) :
    ((cfg0.win 5).blk t).view.emb (ix3 u e f) = ix3 k e f := by
  obtain ⟨e0, e1, e2⟩ := slabIndex t
  funext a
  apply Fin.ext
  match a with
  | ⟨0, _⟩ => show win0_5.index t 0 * 1 + 1 * u.val = k.val; rw [e0, hk]; omega
  | ⟨1, _⟩ => show win0_5.index t 1 * 256 + 1 * e.val = e.val; rw [e1]; omega
  | ⟨2, _⟩ => show win0_5.index t 2 * 256 + 1 * f.val = f.val; rw [e2]; omega

/-- At the last step of a core the accumulator's block is that core's slab of the array of partial sums. -/
theorem after_last (c : Dev nD) (t : Fin cfg0.N) (h3 : t.val % 4 = 3) (j : S1x256x256.Idx) :
    (outsAt0 m c t.val t.isLt).2 j = kvArr m c (((cfg0.win 5).blk t).view.emb j) := by
  have hN : t.val < 8 := lt_of_lt_of_eq t.isLt (show cfg0.N = 8 from N_0)
  obtain ⟨u, e, f, rfl⟩ : ∃ (u : Fin 1) (e f : Fin 256), j = ix3 u e f := ⟨j 0, j 1, j 2, eq_ix3 j⟩
  refine (outsAt_kv m c t.val t.isLt u e f).trans ?_
  rw [slab_emb t ⟨t.val / 4, by omega⟩ rfl u e f, kvArr_apply, h3]

/-- What a writing-back point writes is its block of the array of partial sums. -/
theorem flushed_eq (c : Dev nD) (t : Fin cfg0.N) (hf : (cfg0.win 5).flush t = true) :
    (dats m 0 c).flushed 5 t = ((cfg0.win 5).blk t).view.read (Elt Ideal) (kvArr m c) := by
  have h3 : t.val % 4 = 3 := (flush0_5 t).mp hf
  show (cfg0.win 5).cut (grid0.coords t) ((dats m 0 c).after 5 t) = _
  rw [after0_5]
  funext j
  rw [View.read_apply]
  exact after_last m c t h3 j

/-- Every entry of the array lies in the slab written back at the last step of its core. -/
theorem cover (i : S2x256x256.Idx) :
    ∃ t : Fin cfg0.N, (cfg0.win 5).flush t = true ∧ i ∈ ((cfg0.win 5).blk t).view.set := by
  have h0 : (i 0).val < 2 := (i 0).isLt
  have h1 : (i 1).val < 256 := (i 1).isLt
  have h2 : (i 2).val < 256 := (i 2).isLt
  obtain ⟨t, ht⟩ : ∃ t : Fin cfg0.N, t.val = 4 * (i 0).val + 3 :=
    ⟨⟨4 * (i 0).val + 3, by rw [show cfg0.N = 8 from N_0]; omega⟩, rfl⟩
  refine ⟨t, (flush0_5 t).mpr (by omega), ?_⟩
  obtain ⟨e0, e1, e2⟩ := slabIndex t
  show i ∈ ((View.whole main_v0_1).slice (win0_5.rect t)).set
  rw [View.set_slice_whole, Rect.mem_set_unit]
  intro a
  match a with
  | ⟨0, _⟩ => show win0_5.index t 0 * 1 ≤ (i 0).val ∧ (i 0).val < win0_5.index t 0 * 1 + 1; rw [e0, ht]; omega
  | ⟨1, _⟩ => show win0_5.index t 1 * 256 ≤ (i 1).val ∧ (i 1).val < win0_5.index t 1 * 256 + 256; rw [e1]; omega
  | ⟨2, _⟩ => show win0_5.index t 2 * 256 ≤ (i 2).val ∧ (i 2).val < win0_5.index t 2 * 256 + 256; rw [e2]; omega

/-- The array of partial sums after the run. -/
theorem final5 (c : Dev nD) : (dats m 0 c).arrAt 5 cfg0.N = kvArr m c :=
  (dats m 0 c).arrAt_eq_of_cover 5 (kvArr m c) (fun t hf => flushed_eq m c t hf) cover

end Cert.KernelIdeal.KvArray

end
-- ==== Proof.KernelRun.lean ====
/-
  The kernel program's run, read as a value: its result array is the specification's `kernelOut` of the argument arrays.

  After the pallas_call the projection output holds Q = X W_Q^T entry by entry and slab k of the second output holds
  core k's partial sum of K^T V. The ten host lines that follow read only those two arrays, the head's row and the
  bias; written as one function of the four, and read at token n, they give
  ∑ e, Q[n, e] · (∑ f, (∑ k, partial_k[e, f]) · head_w[0, f]) + head_b[0].
-/
import proofs.«126679_j17051020165649_2_alg».proof.Proof.Gen.KernelIdeal.Frame
import proofs.«126679_j17051020165649_2_alg».proof.Proof.Accum
import proofs.«126679_j17051020165649_2_alg».proof.Proof.Tail
import proofs.«126679_j17051020165649_2_alg».proof.Proof.QArray
import proofs.«126679_j17051020165649_2_alg».proof.Proof.KvArray
import Idealize.ShloMosaic.Lib.Pipeline.Value
import Idealize.ShloMosaic.Lib.StableHlo.Run

noncomputable section

open scoped BigOperators

namespace Cert.KernelIdeal.KernelRun

open Cert.KernelIdeal Cert.KernelIdeal.Gen Cert.KernelIdeal.Accum
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result buffer after the host lines: those lines applied to the two arrays the kernel wrote, the head's row and
    the bias (the other buffers they read are the arguments, which nothing has written). -/
theorem tail_value (c : Dev nD) :
    Pipeline.afterTail₀ cfgs (dats m) 0 (V0 m) [hostOps1] c main_v9
      = Cert.KernelIdeal.Tail.tail ((dats m 0 c).arrAt 4 cfg0.N) ((dats m 0 c).arrAt 5 cfg0.N)
          (m ((c : Thread nD τ).loc main_arg4)) (m ((c : Thread nD τ).loc main_arg5)) := by
  unfold Pipeline.afterTail₀
  show StableHlo.after hostOps1 _ (Proc.devRef .tc main_v9) = _
  after_results
  have e4 : Pipeline.withArrays (cfgs 0).spec c (V0 m c) (fun w => (dats m 0 c).arrAt w (cfgs 0).N) (Proc.tc.devRef main_v0_0)
      = (dats m 0 c).arrAt 4 cfg0.N :=
    Pipeline.withArrays_arr spec0 launch0.win.arr_inj c (V0 m c) (fun w => (dats m 0 c).arrAt w (cfgs 0).N) 4
  have e5 : Pipeline.withArrays (cfgs 0).spec c (V0 m c) (fun w => (dats m 0 c).arrAt w (cfgs 0).N) (Proc.tc.devRef main_v0_1)
      = (dats m 0 c).arrAt 5 cfg0.N :=
    Pipeline.withArrays_arr spec0 launch0.win.arr_inj c (V0 m c) (fun w => (dats m 0 c).arrAt w (cfgs 0).N) 5
  have ea4 : Pipeline.withArrays (cfgs 0).spec c (V0 m c) (fun w => (dats m 0 c).arrAt w (cfgs 0).N) (Proc.tc.devRef main_arg4)
      = m ((c : Thread nD τ).loc main_arg4) :=
    (Pipeline.withArrays_of_ne spec0 c (V0 m c) (fun w => (dats m 0 c).arrAt w (cfgs 0).N) main_arg4
      (by exact (by decide : ∀ w, Pipeline.arrRef spec0 w ≠ main_arg4))).trans (V_main_arg4 m c)
  have ea5 : Pipeline.withArrays (cfgs 0).spec c (V0 m c) (fun w => (dats m 0 c).arrAt w (cfgs 0).N) (Proc.tc.devRef main_arg5)
      = m ((c : Thread nD τ).loc main_arg5) :=
    (Pipeline.withArrays_of_ne spec0 c (V0 m c) (fun w => (dats m 0 c).arrAt w (cfgs 0).N) main_arg5
      (by exact (by decide : ∀ w, Pipeline.arrRef spec0 w ≠ main_arg5))).trans (V_main_arg5 m c)
  rw [e4, e5, ea4, ea5]
  rfl

/-- The kernel program's result, as contents of its result buffer. -/
def kOut (c : Dev nD) : Buf (Elt Ideal) ((c : Thread nD τ).loc main_v9) :=
  fun i => Cert.Spec.kernelOut (X m c) (Wq m c) (Wk m c) (Wv m c) (m ((c : Thread nD τ).loc main_arg4))
    (m ((c : Thread nD τ).loc main_arg5)) ⟨(i 0).val, (i 0).isLt⟩

/-- The host lines over the two arrays the kernel leaves are the specification's formula. -/
theorem tail_kOut (c : Dev nD) :
    Cert.KernelIdeal.Tail.tail ((dats m 0 c).arrAt 4 cfg0.N) ((dats m 0 c).arrAt 5 cfg0.N)
        (m ((c : Thread nD τ).loc main_arg4)) (m ((c : Thread nD τ).loc main_arg5)) = kOut m c := by
  rw [Cert.KernelIdeal.QArray.final4 m c, Cert.KernelIdeal.KvArray.final5 m c]
  funext i
  obtain ⟨n, rfl⟩ : ∃ n : Fin 8192, i = ix1 n := ⟨i 0, eq_ix1 i⟩
  refine (Cert.KernelIdeal.Tail.tail_apply _ _ _ _ n).trans ?_
  rfl

/-- Every weakly fair execution of the kernel program ends with the result buffer at `kOut` and the arguments unchanged. -/
theorem run : θ_run defs (onTc (τ := τ) (main (F := Ideal))) ⟨m, fun _ => 0, ρ⟩ (fun r => ∀ c : Dev nD,
      r.2.mem ((c.tc : Thread nD τ).loc main_v9) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v9 (Pipeline.mem_restRefs_of main_v9 (by decide) (by decide))).trans ((tail_value m c).trans (tail_kOut m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.lean ====
/-
  The certificate of a linear-attention head: a Pallas kernel that never forms the [8192, 8192] attention matrix,
  against the jnp reference that does.

  Reference: Q, K, V = X W_Q^T, X W_K^T, X W_V^T; A = Q K^T; Z = A V; the result is Z head_w^T + head_b.
  Kernel: one pallas_call over a grid of 2 cores × 4 steps projects 1024 tokens per point, writes Q, and adds
  K_block^T V_block into the core's [256, 256] accumulator; the host then adds the two accumulators, multiplies by
  head_w^T first and by Q last, and adds head_b. On the extended reals every change of float format is the identity and
  every matrix product is the plain sum of products, so the kernel computes
      ∑ e, Q[n, e] · (∑ f, (∑ n', K[n', e] · V[n', f]) · head_w[0, f]) + head_b[0]
  and the reference
      ∑ f, (∑ n', (∑ e, Q[n, e] · K[n', e]) · V[n', f]) · head_w[0, f] + head_b[0].
  With every input finite all of these are real numbers, where products distribute over sums and finite sums commute:
  both are ∑ e, ∑ f, ∑ n', Q[n, e] · K[n', e] · V[n', f] · head_w[0, f] + head_b[0]. (At an infinite input the two can
  differ, so the precondition is used.)

  The modules: Spec (the two formulas), Algebra (they agree on finite inputs), Finite (the precondition gives real
  entries), RefSide (the reference's run is its formula), Pieces / Payload / Accum (what the kernel body leaves after each
  grid point), QArray / KvArray (the two output arrays after the run), Tail (the host lines after the kernel),
  KernelRun (the kernel program's run is its formula).
-/
import proofs.«126679_j17051020165649_2_alg».proof.Defs
import proofs.«126679_j17051020165649_2_alg».proof.Proof.Gen.Kernel
import proofs.«126679_j17051020165649_2_alg».proof.Proof.Gen.Kernel.Skeleton
import proofs.«126679_j17051020165649_2_alg».proof.Proof.Gen.Kernel.Launch
import proofs.«126679_j17051020165649_2_alg».proof.Proof.Gen.Kernel.Points
import proofs.«126679_j17051020165649_2_alg».proof.Proof.Gen.Kernel.Frame
import proofs.«126679_j17051020165649_2_alg».proof.Proof.Gen.KernelIdeal
import proofs.«126679_j17051020165649_2_alg».proof.Proof.Gen.KernelIdeal.Skeleton
import proofs.«126679_j17051020165649_2_alg».proof.Proof.Gen.KernelIdeal.Launch
import proofs.«126679_j17051020165649_2_alg».proof.Proof.Gen.KernelIdeal.Points
import proofs.«126679_j17051020165649_2_alg».proof.Proof.Gen.KernelIdeal.Frame
import proofs.«126679_j17051020165649_2_alg».proof.Proof.Gen.ReferenceIdeal
import proofs.«126679_j17051020165649_2_alg».proof.Proof.Gen.ReferenceIdeal.Run
import proofs.«126679_j17051020165649_2_alg».proof.Proof.Gen.ReferenceIdeal.Read
import proofs.«126679_j17051020165649_2_alg».proof.Proof.Gen.Pre_finite_inputs
import proofs.«126679_j17051020165649_2_alg».proof.Proof.Algebra
import proofs.«126679_j17051020165649_2_alg».proof.Proof.Finite
import proofs.«126679_j17051020165649_2_alg».proof.Proof.RefSide
import proofs.«126679_j17051020165649_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite inputs the kernel's formula and the reference's are the same real number at every token. -/
theorem algebraic : Cert.algebraic_KernelIdeal_ReferenceIdeal := by
  intro m ρ m' ρ' hpre hagree
  refine ⟨fun c => Cert.KernelIdeal.KernelRun.kOut m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2.1, (hagree c).2.2.2.1,
    (hagree c).2.2.2.2.1, (hagree c).2.2.2.2.2]
  obtain ⟨h0, h1, h2, h3, h4⟩ := Cert.Finite.real_of_fn _ _ _ _ _ _ (hpre c)
  funext i
  obtain ⟨n, rfl⟩ : ∃ n : Fin 8192, i = ValueIdx.ix1 n := ⟨i 0, ValueIdx.eq_ix1 i⟩
  rw [Cert.RefSide.ref_apply]
  exact (Cert.Algebra.kernelOut_eq_refOut _ _ _ _ _ _ h0 h1 h2 h3 h4 n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
